-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S1200000 32) (main_arg4 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S5000x64 : Shape := ⟨2, ![5000, 64]⟩
abbrev S5000x1 : Shape := ⟨2, ![5000, 1]⟩
abbrev S1200000x64 : Shape := ⟨2, ![1200000, 64]⟩
abbrev S1x64 : Shape := ⟨2, ![1, 64]⟩

abbrev nBuf : Space → Nat
  | .hbm => 41
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .i32⟩
  | .hbm, ⟨4, _⟩ => ⟨S1200000, .i32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S100000x1, .f32⟩
  | .hbm, ⟨39, _⟩ => ⟨S1x64, .f32⟩
  | .hbm, ⟨40, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S1200000, .i32⟩
  | .hbm, ⟨4, _⟩ => ⟨S1200000, .i32⟩
  | .hbm, ⟨5, _⟩ => ⟨S_, .f32⟩
  | .hbm, ⟨6, _⟩ => ⟨S1200000, .f32⟩
  | .hbm, ⟨7, _⟩ => ⟨S_, .f32⟩
  | .hbm, ⟨8, _⟩ => ⟨S100000, .f32⟩
  | .hbm, ⟨9, _⟩ => ⟨S1200000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S1200000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x64, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000x64, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000x1, .f32⟩
  | .hbm, ⟨43, _⟩ => ⟨S1200000x64, .f32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  gather_S100000_S1200000x1_S1200000_n_0_n_n_0_1_1_wf : GatherDims.WF S100000 S1200000x1 S1200000 [] [0] [] [0] [] 1 ![1]
  scatter_S100000x64_S1200000x1_S1200000x64_1_0_0_1_wf : ScatterDims.WF S100000x64 S1200000x1 S1200000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KRun.lean ====
/-
  The idealized kernel's run with its result NAMED.

  The program is two pipelined regions among two stretches of host operations. Its buffers' contents at the four
  boundaries are a fold from the launch memory (`Gen.W1 … Gen.W4`), and every execution ends with each unscoped buffer
  at the last boundary's contents. Read at the result buffer this says: the result array ends at `Gen.W4 m ρ c` of the
  result's reference — the second region's output array after its write-backs — while the five argument arrays end as
  launched.
-/
import proofs.«147732_j1065151889944_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; its result array ends at the last
    boundary's contents of the result buffer, and the argument arrays end as launched. -/
theorem run_named : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Hand

end
-- ==== Proof.Spec.lean ====
/-
  One layer of a graph convolution on 100000 nodes with 64 features, as two dense functions on the extended reals.

  `scaledLinear x w n` is the node-wise linear transform with its rows scaled: entry (p, q) is
  (∑ k, x[p, k] · w[k, q]) · n[p, 0].  `finish a n b` is the closing step: entry (p, q) is max(a[p, q] · n[p, 0] + b[0, q], 0).
  Between the two the layer gathers rows along the edges' sources and adds them up at the edges' targets; that part is
  shared verbatim by the two programs compared and is never opened.
-/
import Idealize.ShloMosaic.Lib.ValueIdx
import Idealize.ShloMosaic.PureOps.Ideal

noncomputable section

namespace Cert.Gcn

open Idealize.ShloMosaic Idealize.ShloMosaic.ValueIdx

/-- Entry (p, q) of the scaled linear transform: the row p of `x` against the column q of `w`, times the row's scale. -/
def scaledLinearAt (x : FVec Ideal ⟨2, ![100000, 64]⟩ .f32) (w : FVec Ideal ⟨2, ![64, 64]⟩ .f32)
    (n : FVec Ideal ⟨2, ![100000, 1]⟩ .f32) (p : Fin 100000) (q : Fin 64) : Ideal .f32 :=
  (∑ k : Fin 64, x (ix2 p k) * w (ix2 k q)) * n (ix2 p (0 : Fin 1))

/-- The scaled linear transform as one array. -/
def scaledLinear (x : FVec Ideal ⟨2, ![100000, 64]⟩ .f32) (w : FVec Ideal ⟨2, ![64, 64]⟩ .f32)
    (n : FVec Ideal ⟨2, ![100000, 1]⟩ .f32) : FVec Ideal ⟨2, ![100000, 64]⟩ .f32 :=
  fun i => scaledLinearAt x w n ⟨(i 0).val, idx2_lt0 i⟩ ⟨(i 1).val, idx2_lt1 i⟩

/-- Entry (p, q) of the closing step: scale the aggregated row, add the bias, clamp below at the zero word's value. -/
def finishAt (a : FVec Ideal ⟨2, ![100000, 64]⟩ .f32) (n : FVec Ideal ⟨2, ![100000, 1]⟩ .f32)
    (b : FVec Ideal ⟨2, ![1, 64]⟩ .f32) (p : Fin 100000) (q : Fin 64) : Ideal .f32 :=
  max (a (ix2 p q) * n (ix2 p (0 : Fin 1)) + b (ix2 (0 : Fin 1) q)) (Ideal.ofBits .f32 0x00000000#32)

/-- The closing step as one array. -/
def finish (a : FVec Ideal ⟨2, ![100000, 64]⟩ .f32) (n : FVec Ideal ⟨2, ![100000, 1]⟩ .f32)
    (b : FVec Ideal ⟨2, ![1, 64]⟩ .f32) : FVec Ideal ⟨2, ![100000, 64]⟩ .f32 :=
  fun i => finishAt a n b ⟨(i 0).val, idx2_lt0 i⟩ ⟨(i 1).val, idx2_lt1 i⟩

end Cert.Gcn

end
-- ==== Proof.KernelValue.lean ====
/-
  The idealized kernel's result as one function of its five argument arrays, spelt with the kernel program's own host
  operations.

  From each endpoint list the host computes the per-node scale `norm` (the number of edges at the node, at least one, to
  the power −1/2). The scaled linear transform of the features and the weight (scale: the sources' `norm` as a column)
  is gathered row by row at the edges' sources (`edgeIndex`: a negative index is first shifted by the node count) and the
  rows are added up at the edges' targets (`aggregate`); the closing step scales by the targets' `norm`, adds the bias row
  and clamps below at zero. The gather, the scatter-add and `norm` stay folded: both programs compared apply the same ones.
-/
import proofs.«147732_j1065151889944_2_alg».proof.Proof.Gen.KernelIdeal
import proofs.«147732_j1065151889944_2_alg».proof.Proof.Spec

noncomputable section

namespace Cert.KernelIdeal.Hand

open Cert.KernelIdeal Cert.KernelIdeal.Gen Idealize.ShloMosaic

/-- The per-node scale from an endpoint list: count the edges at each node, clamp below at one, inverse square root. -/
def norm (e : IVec S1200000 32) : FVec Ideal S100000 .f32 :=
  Host.rsqrt (F := Ideal) (maximumf
    (Host.scatterAdd (F := Ideal) scatter_S100000_S1200000x1_S1200000_n_0_0_1 (broadcastInDim S100000 ![] bcast_S_S100000 (constant (F := Ideal) S_ .f32 0x00000000#32))
      (broadcastInDim S1200000x1 ![0] bcast_S1200000_S1200000x1_0 e)
      (broadcastInDim S1200000 ![] bcast_S_S1200000 (constant (F := Ideal) S_ .f32 0x3F800000#32)))
    (broadcastInDim S100000 ![] bcast_S_S100000 (constant (F := Ideal) S_ .f32 0x3F800000#32)))

/-- The start indices of the row gather: a negative source is shifted by the node count, one index per edge. -/
def edgeIndex (src : IVec S1200000 32) : IVec S1200000x1 32 :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 100000#32))) src)

/-- The per-edge rows added up at the edges' targets, from zero. -/
def aggregate (dst : IVec S1200000 32) (msg : FVec Ideal S1200000x64 .f32) : FVec Ideal S100000x64 .f32 :=
  Host.scatterAdd (F := Ideal) scatter_S100000x64_S1200000x1_S1200000x64_1_0_0_1 (broadcastInDim S100000x64 ![] bcast_S_S100000x64 (constant (F := Ideal) S_ .f32 0x00000000#32))
    (broadcastInDim S1200000x1 ![0] bcast_S1200000_S1200000x1_0 dst) msg

/-- The kernel's result from its arguments. -/
def kernelOut (x : FVec Ideal S100000x64 .f32) (w : FVec Ideal S64x64 .f32) (b : FVec Ideal S64 .f32)
    (src dst : IVec S1200000 32) : FVec Ideal S100000x64 .f32 :=
  Cert.Gcn.finish
    (aggregate dst (Host.gather gather_S100000x64_S1200000x1_S1200000x64_1_0_n_n_0_1_164
      (Cert.Gcn.scaledLinear x w (shapeCast S100000x1 (norm src) shapeCasts_S100000_S100000x1)) (edgeIndex src)))
    (shapeCast S100000x1 (norm dst) shapeCasts_S100000_S100000x1)
    (shapeCast S1x64 b shapeCasts_S64_S1x64)

end Cert.KernelIdeal.Hand

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.Region0.lean ====
/-
  The first pipelined region, read as a value: for whatever contents `V` the region finds in its buffers, its output array
  ends at the scaled linear transform of its three input arrays.

  The grid has 20 points; point t works on rows 5000·t … 5000·t + 4999. At a point the body multiplies the point's
  5000 × 64 block of the first operand with the whole 64 × 64 second operand (one contracted axis of extent 64, a zero
  accumulator; the change of float format on the way in is the identity on the extended reals) and scales row p of the
  product by entry (p, 0) of the point's block of the column operand. So what point t writes back is block t of
  `Cert.Gcn.scaledLinear` of the whole arrays, and the 20 blocks tile the output.
-/
import proofs.«147732_j1065151889944_2_alg».proof.Proof.Gen.KernelIdeal.Frame
import proofs.«147732_j1065151889944_2_alg».proof.Proof.LibDotSingle
import proofs.«147732_j1065151889944_2_alg».proof.Proof.LibKeepdims
import proofs.«147732_j1065151889944_2_alg».proof.Proof.Spec
import Idealize.ShloMosaic.Lib.Pipeline.Value
import Idealize.ShloMosaic.Lib.ValueIdx
import Idealize.ShloMosaic.Lib.ValueLayout

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-! ## The body's product at an entry -/

/-- The left operand's row coordinate is the result's. -/
theorem lhs_row (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction's. -/
theorem lhs_contr (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction's. -/
theorem rhs_contr (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the result's. -/
theorem rhs_col (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- What the body stores, at entry (p, q) of the block: row p of the first block against column q of the second operand,
    times entry (p, 0) of the column block. -/
theorem payload_apply (x0 : Vec Ideal S5000x64 .f32) (x1 : Vec Ideal S64x64 .f32) (x2 : Vec Ideal S5000x1 .f32) (p : Fin 5000) (q : Fin 64) :
    k0_pay1 (F := Ideal) x0 x1 x2 (ix2 p q) = (∑ k : Fin 64, x0 (ix2 p k) * x1 (ix2 k q)) * x2 (ix2 p (0 : Fin 1)) := by
  unfold k0_pay1
  show matmul dot_S5000x64_S64x64_S5000x64_1_0_0_1_n_n none (truncf .bf16 x0 bitsLt_bf16_f32) (truncf .bf16 x1 bitsLt_bf16_f32) (constant (F := Ideal) S5000x64 .f32 0x00000000#32) (ix2 p q)
      * broadcastTo S5000x64 (shapeCast S5000x1 x2 shapeCasts_S5000x1_S5000x1) broadcasts_S5000x1_S5000x64 (ix2 p q) = _
  refine congrArg₂ (· * ·) ?_ ?_
  · refine (Cert.LibDotSingle.matmul_zero_apply dot_S5000x64_S64x64_S5000x64_1_0_0_1_n_n 64 rfl rfl none (truncf .bf16 x0 bitsLt_bf16_f32) (truncf .bf16 x1 bitsLt_bf16_f32)
      (ix2 p q) (fun k => ix2 p k) (fun k => ix2 k q) (fun k => ?_) (fun k => ?_)).trans rfl
    · funext a; apply Fin.ext
      match a with
      | ⟨0, _⟩ => exact lhs_row _ _
      | ⟨1, _⟩ => exact (lhs_contr _ _).trans (contrEquiv1_symm_val dot_S5000x64_S64x64_S5000x64_1_0_0_1_n_n 64 rfl rfl k)
    · funext a; apply Fin.ext
      match a with
      | ⟨0, _⟩ => exact (rhs_contr _ _).trans (contrEquiv1_symm_val dot_S5000x64_S64x64_S5000x64_1_0_0_1_n_n 64 rfl rfl k)
      | ⟨1, _⟩ => exact rhs_col _ _
  · rw [shapeCast_self]
    exact Cert.LibKeepdims.broadcastTo_a1_ab_apply x2 broadcasts_S5000x1_S5000x64 p q

/-! ## The windows' blocks as rows of their arrays -/

/-- The printed index maps, decided over the 20 points: the three row-tiled windows are at block row t, the weight at
    block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row below 20 is some point's. -/
theorem index_onto : ∀ q0 : Fin 20, ∃ t : Fin cfg0.N, win0_3.index t (0 : Fin 2) = q0.val ∧ win0_3.index t (1 : Fin 2) = 0 :=
  (by decide +kernel : ∀ q0 : Fin 20, ∃ t : Fin grid0.N, win0_3.index t (0 : Fin 2) = q0.val ∧ win0_3.index t (1 : Fin 2) = 0)

/-- The first operand's block at point t: rows 5000·t + · of its array. -/
theorem block_x (c : Dev nD) (t : Fin cfg0.N) (y : S5000x64.Idx) (z : S100000x64.Idx)
    (h0 : (z 0).val = t.val * 5000 + (y 0).val) (h1 : (z 1).val = (y 1).val) :
    (iblk0 V c 0 t : Vec Ideal S5000x64 .f32) y = (V c main_arg0 : S100000x64.Idx → Elt Ideal .f32) z := by
  obtain ⟨e0, e1, -⟩ := index_facts t
  unfold iblk0
  rw [View.read_apply]
  show V c main_arg0 _ = V c main_arg0 _
  congr 1
  funext a; apply Fin.ext
  match a with
  | ⟨0, _⟩ => show win0_0.index t 0 * 5000 + 1 * (y 0).val = (z 0).val; rw [e0, h0]; omega
  | ⟨1, _⟩ => show win0_0.index t 1 * 64 + 1 * (y 1).val = (z 1).val; rw [e1, h1]; omega

/-- The weight's block at every point is the whole weight. -/
theorem block_w (c : Dev nD) (t : Fin cfg0.N) (y z : S64x64.Idx) (h0 : (z 0).val = (y 0).val) (h1 : (z 1).val = (y 1).val) :
    (iblk0 V c 1 t : Vec Ideal S64x64 .f32) y = (V c main_arg1 : S64x64.Idx → Elt Ideal .f32) z := by
  obtain ⟨-, -, e0, e1, -⟩ := index_facts t
  unfold iblk0
  rw [View.read_apply]
  show V c main_arg1 _ = V c main_arg1 _
  congr 1
  funext a; apply Fin.ext
  match a with
  | ⟨0, _⟩ => show win0_1.index t 0 * 64 + 1 * (y 0).val = (z 0).val; rw [e0, h0]; omega
  | ⟨1, _⟩ => show win0_1.index t 1 * 64 + 1 * (y 1).val = (z 1).val; rw [e1, h1]; omega

/-- The column operand's block at point t: rows 5000·t + · of its array. -/
theorem block_n (c : Dev nD) (t : Fin cfg0.N) (y : S5000x1.Idx) (z : S100000x1.Idx)
    (h0 : (z 0).val = t.val * 5000 + (y 0).val) (h1 : (z 1).val = (y 1).val) :
    (iblk0 V c 2 t : Vec Ideal S5000x1 .f32) y = (V c main_v13 : S100000x1.Idx → Elt Ideal .f32) z := by
  obtain ⟨-, -, -, -, e0, e1, -⟩ := index_facts t
  unfold iblk0
  rw [View.read_apply]
  show V c main_v13 _ = V c main_v13 _
  congr 1
  funext a; apply Fin.ext
  match a with
  | ⟨0, _⟩ => show win0_2.index t 0 * 5000 + 1 * (y 0).val = (z 0).val; rw [e0, h0]; omega
  | ⟨1, _⟩ => show win0_2.index t 1 * 1 + 1 * (y 1).val = (z 1).val; rw [e1, h1]; omega

/-! ## What a point writes back, the cover, and the array after the region -/

/-- What point t writes back is block t of the scaled linear transform of the arrays the region found. -/
theorem flushed_eq (c : Dev nD) (t : Fin cfg0.N) :
    (dat0 V c).flushed 3 t = ((cfg0.win 3).blk t).view.read (Elt Ideal)
      (Cert.Gcn.scaledLinear (V c main_arg0) (V c main_arg1) (V c main_v13)) := by
  show (cfg0.win 3).cut (grid0.coords t) ((dat0 V c).after 3 t) = _
  rw [after0_3]
  unfold out0_3
  rw [View.canon_unit_zero offsets_zero]
  simp only [View.ld_unit_zero (S := S5000x64) offsets_zero, View.ld_unit_zero (S := S64x64) offsets_zero,
    View.ld_unit_zero (S := S5000x1) offsets_zero]
  obtain ⟨-, -, -, -, -, -, e0, e1⟩ := index_facts t
  funext j
  show k0_pay1 (F := Ideal) (iblk0 V c 0 t) (iblk0 V c 1 t) (iblk0 V c 2 t) j
    = Cert.Gcn.scaledLinear (V c main_arg0) (V c main_arg1) (V c main_v13) (((cfg0.win 3).blk t).view.emb j)
  have hj0 : (j 0).val < 5000 := (j 0).isLt
  have hj1 : (j 1).val < 64 := (j 1).isLt
  have hr0 : ((((cfg0.win 3).blk t).view.emb j) 0).val = t.val * 5000 + (j 0).val := by
    show win0_3.index t 0 * 5000 + 1 * (j 0).val = _; rw [e0]; omega
  have hr1 : ((((cfg0.win 3).blk t).view.emb j) 1).val = (j 1).val := by
    show win0_3.index t 1 * 64 + 1 * (j 1).val = _; rw [e1]; omega
  have hj : (j : S5000x64.Idx) = ix2 (⟨(j 0).val, hj0⟩ : Fin 5000) (⟨(j 1).val, hj1⟩ : Fin 64) := eq_ix2 j
  refine (congrArg (k0_pay1 (F := Ideal) (iblk0 V c 0 t) (iblk0 V c 1 t) (iblk0 V c 2 t)) hj).trans ?_
  refine (payload_apply (iblk0 V c 0 t) (iblk0 V c 1 t) (iblk0 V c 2 t) ⟨(j 0).val, hj0⟩ ⟨(j 1).val, hj1⟩).trans ?_
  unfold Cert.Gcn.scaledLinear Cert.Gcn.scaledLinearAt
  refine congrArg₂ (· * ·) (Finset.sum_congr rfl fun k _ => congrArg₂ (· * ·) ?_ ?_) ?_
  · exact block_x V c t _ _ hr0 rfl
  · exact block_w V c t _ _ rfl hr1
  · exact block_n V c t _ _ hr0 rfl

/-- An index of the output array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Row r of the output is in the block of the point at block row r / 5000. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, q0, q1⟩ := index_onto ⟨(i 0).val / 5000, by omega⟩
  have q0' : win0_3.index t (0 : Fin 2) = (i 0).val / 5000 := q0
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region: the scaled linear transform of the arrays the region found. -/
theorem final (c : Dev nD) :
    (dat0 V c).arrAt 3 cfg0.N = Cert.Gcn.scaledLinear (V c main_arg0) (V c main_arg1) (V c main_v13) :=
  (dat0 V c).arrAt_eq_of_cover 3 _ (fun t _ => flushed_eq V c t) covered

end Cert.KernelIdeal.Linear

end
-- ==== Proof.Region1.lean ====
/-
  The second pipelined region, read as a value: for whatever contents `V` the region finds in its buffers, its output array
  ends at the closing step of its three input arrays.

  The grid has 20 points; point t works on rows 5000·t … 5000·t + 4999. At a point the body scales row p of the point's
  5000 × 64 block by entry (p, 0) of the point's block of the column operand, adds the 1 × 64 bias row to every row and
  clamps below at zero. So what point t writes back is block t of `Cert.Gcn.finish` of the whole arrays, and the 20 blocks
  tile the output.
-/
import proofs.«147732_j1065151889944_2_alg».proof.Proof.Gen.KernelIdeal.Frame
import proofs.«147732_j1065151889944_2_alg».proof.Proof.LibKeepdims
import proofs.«147732_j1065151889944_2_alg».proof.Proof.Spec
import Idealize.ShloMosaic.Lib.Pipeline.Value
import Idealize.ShloMosaic.Lib.ValueIdx
import Idealize.ShloMosaic.Lib.ValueLayout

noncomputable section

namespace Cert.KernelIdeal.Finish

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-! ## The body's value at an entry -/

/-- What the body stores, at entry (p, q) of the block: the first block's entry times entry (p, 0) of the column block,
    plus entry (0, q) of the bias row, clamped below at zero. -/
theorem payload_apply (x0 : Vec Ideal S5000x64 .f32) (x1 : Vec Ideal S5000x1 .f32) (x2 : Vec Ideal S1x64 .f32) (p : Fin 5000) (q : Fin 64) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  show max (shapeCast S5000x64 x0 shapeCasts_S5000x64_S5000x64 (ix2 p q)
        * broadcastTo S5000x64 (shapeCast S5000x1 x1 shapeCasts_S5000x1_S5000x1) broadcasts_S5000x1_S5000x64 (ix2 p q)
      + broadcastTo S5000x64 (shapeCast S1x64 x2 shapeCasts_S1x64_S1x64) broadcasts_S1x64_S5000x64 (ix2 p q))
    (Ideal.ofBits .f32 0x00000000#32) = _
  rw [shapeCast_self, shapeCast_self, shapeCast_self]
  rw [Cert.LibKeepdims.broadcastTo_a1_ab_apply x1 broadcasts_S5000x1_S5000x64 p q,
    broadcastTo_1b_ab_apply x2 broadcasts_S1x64_S5000x64 p q]

/-! ## The windows' blocks as rows of their arrays -/

/-- The printed index maps, decided over the 20 points: the three row-tiled windows are at block row t, the bias at
    block (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row below 20 is some point's. -/
theorem index_onto : ∀ q0 : Fin 20, ∃ t : Fin cfg1.N, win1_3.index t (0 : Fin 2) = q0.val ∧ win1_3.index t (1 : Fin 2) = 0 :=
  (by decide +kernel : ∀ q0 : Fin 20, ∃ t : Fin grid1.N, win1_3.index t (0 : Fin 2) = q0.val ∧ win1_3.index t (1 : Fin 2) = 0)

/-- The aggregated operand's block at point t: rows 5000·t + · of its array. -/
theorem block_a (c : Dev nD) (t : Fin cfg1.N) (y : S5000x64.Idx) (z : S100000x64.Idx)
    (h0 : (z 0).val = t.val * 5000 + (y 0).val) (h1 : (z 1).val = (y 1).val) :
    (iblk1 V c 0 t : Vec Ideal S5000x64 .f32) y = (V c main_v24 : S100000x64.Idx → Elt Ideal .f32) z := by
  obtain ⟨e0, e1, -⟩ := index_facts t
  unfold iblk1
  rw [View.read_apply]
  show V c main_v24 _ = V c main_v24 _
  congr 1
  funext a; apply Fin.ext
  match a with
  | ⟨0, _⟩ => show win1_0.index t 0 * 5000 + 1 * (y 0).val = (z 0).val; rw [e0, h0]; omega
  | ⟨1, _⟩ => show win1_0.index t 1 * 64 + 1 * (y 1).val = (z 1).val; rw [e1, h1]; omega

/-- The column operand's block at point t: rows 5000·t + · of its array. -/
theorem block_n (c : Dev nD) (t : Fin cfg1.N) (y : S5000x1.Idx) (z : S100000x1.Idx)
    (h0 : (z 0).val = t.val * 5000 + (y 0).val) (h1 : (z 1).val = (y 1).val) :
    (iblk1 V c 1 t : Vec Ideal S5000x1 .f32) y = (V c main_v25 : S100000x1.Idx → Elt Ideal .f32) z := by
  obtain ⟨-, -, e0, e1, -⟩ := index_facts t
  unfold iblk1
  rw [View.read_apply]
  show V c main_v25 _ = V c main_v25 _
  congr 1
  funext a; apply Fin.ext
  match a with
  | ⟨0, _⟩ => show win1_1.index t 0 * 5000 + 1 * (y 0).val = (z 0).val; rw [e0, h0]; omega
  | ⟨1, _⟩ => show win1_1.index t 1 * 1 + 1 * (y 1).val = (z 1).val; rw [e1, h1]; omega

/-- The bias row's block at every point is the whole row. -/
theorem block_b (c : Dev nD) (t : Fin cfg1.N) (y z : S1x64.Idx) (h0 : (z 0).val = (y 0).val) (h1 : (z 1).val = (y 1).val) :
    (iblk1 V c 2 t : Vec Ideal S1x64 .f32) y = (V c main_v26 : S1x64.Idx → Elt Ideal .f32) z := by
  obtain ⟨-, -, -, -, e0, e1, -⟩ := index_facts t
  unfold iblk1
  rw [View.read_apply]
  show V c main_v26 _ = V c main_v26 _
  congr 1
  funext a; apply Fin.ext
  match a with
  | ⟨0, _⟩ => show win1_2.index t 0 * 1 + 1 * (y 0).val = (z 0).val; rw [e0, h0]; omega
  | ⟨1, _⟩ => show win1_2.index t 1 * 64 + 1 * (y 1).val = (z 1).val; rw [e1, h1]; omega

/-! ## What a point writes back, the cover, and the array after the region -/

/-- What point t writes back is block t of the closing step of the arrays the region found. -/
theorem flushed_eq (c : Dev nD) (t : Fin cfg1.N) :
    (dat1 V c).flushed 3 t = ((cfg1.win 3).blk t).view.read (Elt Ideal)
      (Cert.Gcn.finish (V c main_v24) (V c main_v25) (V c main_v26)) := by
  show (cfg1.win 3).cut (grid1.coords t) ((dat1 V c).after 3 t) = _
  rw [after1_3]
  unfold out1_3
  rw [View.canon_unit_zero offsets_zero]
  simp only [View.ld_unit_zero (S := S5000x64) offsets_zero, View.ld_unit_zero (S := S5000x1) offsets_zero,
    View.ld_unit_zero (S := S1x64) offsets_zero]
  obtain ⟨-, -, -, -, -, -, e0, e1⟩ := index_facts t
  funext j
  show k1_pay1 (F := Ideal) (iblk1 V c 0 t) (iblk1 V c 1 t) (iblk1 V c 2 t) j
    = Cert.Gcn.finish (V c main_v24) (V c main_v25) (V c main_v26) (((cfg1.win 3).blk t).view.emb j)
  have hj0 : (j 0).val < 5000 := (j 0).isLt
  have hj1 : (j 1).val < 64 := (j 1).isLt
  have hr0 : ((((cfg1.win 3).blk t).view.emb j) 0).val = t.val * 5000 + (j 0).val := by
    show win1_3.index t 0 * 5000 + 1 * (j 0).val = _; rw [e0]; omega
  have hr1 : ((((cfg1.win 3).blk t).view.emb j) 1).val = (j 1).val := by
    show win1_3.index t 1 * 64 + 1 * (j 1).val = _; rw [e1]; omega
  have hj : (j : S5000x64.Idx) = ix2 (⟨(j 0).val, hj0⟩ : Fin 5000) (⟨(j 1).val, hj1⟩ : Fin 64) := eq_ix2 j
  refine (congrArg (k1_pay1 (F := Ideal) (iblk1 V c 0 t) (iblk1 V c 1 t) (iblk1 V c 2 t)) hj).trans ?_
  refine (payload_apply (iblk1 V c 0 t) (iblk1 V c 1 t) (iblk1 V c 2 t) ⟨(j 0).val, hj0⟩ ⟨(j 1).val, hj1⟩).trans ?_
  unfold Cert.Gcn.finish Cert.Gcn.finishAt
  refine congrArg₂ max (congrArg₂ (· + ·) (congrArg₂ (· * ·) ?_ ?_) ?_) rfl
  · exact block_a V c t _ _ hr0 hr1
  · exact block_n V c t _ _ hr0 rfl
  · exact block_b V c t _ _ rfl hr1

/-- An index of the output array is in point t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- Row r of the output is in the block of the point at block row r / 5000. -/
theorem covered (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, q0, q1⟩ := index_onto ⟨(i 0).val / 5000, by omega⟩
  have q0' : win1_3.index t (0 : Fin 2) = (i 0).val / 5000 := q0
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region: the closing step of the arrays the region found. -/
theorem final (c : Dev nD) :
    (dat1 V c).arrAt 3 cfg1.N = Cert.Gcn.finish (V c main_v24) (V c main_v25) (V c main_v26) :=
  (dat1 V c).arrAt_eq_of_cover 3 _ (fun t _ => flushed_eq V c t) covered

end Cert.KernelIdeal.Finish

end
-- ==== Proof.Host.lean ====
/-
  The idealized kernel's buffers read boundary by boundary, down to its result as `kernelOut` of the argument arrays.

  Before the first region the host leaves the features and the weight as launched and the sources' scale as a column; the
  first region leaves the scaled linear transform of those three and touches nothing else; the second stretch gathers,
  aggregates and casts the targets' scale to a column and the bias to a row; the second region leaves the closing step.
-/
import proofs.«147732_j1065151889944_2_alg».proof.Proof.KRun
import proofs.«147732_j1065151889944_2_alg».proof.Proof.KernelValue
import proofs.«147732_j1065151889944_2_alg».proof.Proof.Region0
import proofs.«147732_j1065151889944_2_alg».proof.Proof.Region1
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## After the first stretch of host operations -/

theorem entry_x (c : Dev nD) : V1 m ρ c main_arg0 = m ((c : Thread nD τ).loc main_arg0) := by
  show StableHlo.after hostOps0 (W0 m ρ c) (Proc.devRef .tc main_arg0) = _
  dsimp only [hostOps0]
  after_results

theorem entry_w (c : Dev nD) : V1 m ρ c main_arg1 = m ((c : Thread nD τ).loc main_arg1) := by
  show StableHlo.after hostOps0 (W0 m ρ c) (Proc.devRef .tc main_arg1) = _
  dsimp only [hostOps0]
  after_results

theorem entry_norm (c : Dev nD) :
    (V1 m ρ c main_v13 : S100000x1.Idx → Elt Ideal .f32)
      = shapeCast S100000x1 (norm (m ((c : Thread nD τ).loc main_arg3))) shapeCasts_S100000_S100000x1 := by
  show StableHlo.after hostOps0 (W0 m ρ c) (Proc.devRef .tc main_v13) = _
  dsimp only [hostOps0]
  after_results
  rfl

/-! ## After the first region -/

theorem exit_linear (c : Dev nD) :
    (W2 m ρ c (Proc.devRef .tc main_v14) : S100000x64.Idx → Elt Ideal .f32)
      = Cert.Gcn.scaledLinear (m ((c : Thread nD τ).loc main_arg0)) (m ((c : Thread nD τ).loc main_arg1)) (shapeCast S100000x1 (norm (m ((c : Thread nD τ).loc main_arg3))) shapeCasts_S100000_S100000x1) := by
  refine ((W2_arr m ρ c 3).trans (Cert.KernelIdeal.Linear.final (V1 m ρ) c)).trans ?_
  rw [entry_x m ρ c, entry_w m ρ c, entry_norm m ρ c]

theorem exit_src (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]
  after_results

theorem exit_dst (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  dsimp only [hostOps0]
  after_results

theorem exit_bias (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]
  after_results

theorem exit_norm_dst (c : Dev nD) :
    (W2 m ρ c (Proc.devRef .tc main_v12) : S100000.Idx → Elt Ideal .f32) = norm (m ((c : Thread nD τ).loc main_arg4)) := by
  refine (W2_of_ne m ρ c main_v12 (by decide)).trans ?_
  show StableHlo.after hostOps0 (W0 m ρ c) (Proc.devRef .tc main_v12) = _
  dsimp only [hostOps0]
  after_results
  rfl

/-! ## After the second stretch of host operations -/

theorem entry_aggregate (c : Dev nD) :
    (V3 m ρ c main_v24 : S100000x64.Idx → Elt Ideal .f32)
      = aggregate (m ((c : Thread nD τ).loc main_arg4)) (Host.gather gather_S100000x64_S1200000x1_S1200000x64_1_0_n_n_0_1_164
          (Cert.Gcn.scaledLinear (m ((c : Thread nD τ).loc main_arg0)) (m ((c : Thread nD τ).loc main_arg1)) (shapeCast S100000x1 (norm (m ((c : Thread nD τ).loc main_arg3))) shapeCasts_S100000_S100000x1))
          (edgeIndex (m ((c : Thread nD τ).loc main_arg3)))) := by
  show StableHlo.after hostOps1 (W2 m ρ c) (Proc.devRef .tc main_v24) = _
  dsimp only [hostOps1]
  after_results
  rw [exit_linear m ρ c, exit_src m ρ c, exit_dst m ρ c]
  rfl

theorem entry_norm_dst (c : Dev nD) :
    (V3 m ρ c main_v25 : S100000x1.Idx → Elt Ideal .f32)
      = shapeCast S100000x1 (norm (m ((c : Thread nD τ).loc main_arg4))) shapeCasts_S100000_S100000x1 := by
  show StableHlo.after hostOps1 (W2 m ρ c) (Proc.devRef .tc main_v25) = _
  dsimp only [hostOps1]
  after_results
  rw [exit_norm_dst m ρ c]
  rfl

theorem entry_bias (c : Dev nD) :
    (V3 m ρ c main_v26 : S1x64.Idx → Elt Ideal .f32)
      = shapeCast S1x64 (m ((c : Thread nD τ).loc main_arg2)) shapeCasts_S64_S1x64 := by
  show StableHlo.after hostOps1 (W2 m ρ c) (Proc.devRef .tc main_v26) = _
  dsimp only [hostOps1]
  after_results
  rw [exit_bias m ρ c]
  rfl

/-! ## After the second region: the result -/

theorem result_value (c : Dev nD) :
    (W4 m ρ c (Proc.devRef .tc main_v27) : S100000x64.Idx → Elt Ideal .f32)
      = kernelOut (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 3).trans (Cert.KernelIdeal.Finish.final (V3 m ρ) c)).trans ?_
  rw [entry_aggregate m ρ c, entry_norm_dst m ρ c, entry_bias m ρ c]
  rfl

/-- Every weakly fair execution of the idealized kernel terminates without a fault; its result array ends at `kernelOut`
    of the argument arrays as launched, and those end unchanged. -/
theorem run : θ_run defs (onTc (τ := τ) (main (F := Ideal))) ⟨m, fun _ => 0, ρ⟩ (fun r => ∀ c : Dev nD,
      r.2.mem ((c.tc : Thread nD τ).loc main_v27) = kernelOut (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_named m ρ)

end Cert.KernelIdeal.Hand

end
-- ==== Proof.GatherRead.lean ====
/-
  The two gathers of the layer, read at an index.

  Both take one start index per edge (an [E, 1] integer array, E = 1200000) and clamp it into the node range 0 … 99999.
  The row gather of a [100000, 64] array returns, at (e, j), the array at (clamped index of e, j); the entry gather of a
  length-100000 vector returns, at e, the vector at the clamped index of e. Both clamp the same word in the same way, so
  gathering rows scaled by a per-row factor is gathering the rows and the factors separately and multiplying.
-/
import proofs.«147732_j1065151889944_2_alg».proof.Proof.Gen.KernelIdeal
import proofs.«147732_j1065151889944_2_alg».proof.Proof.Gen.ReferenceIdeal
import Idealize.ShloMosaic.Lib.ValueIdx

noncomputable section

namespace Cert.Gcn.Gather

open Idealize.ShloMosaic Idealize.ShloMosaic.ValueIdx

/-- Row e of the gathered array is the operand's row at the e-th start index, read signed and clamped into 0 … 99999;
    the column is kept. -/
theorem rows_kernel {α : Type} (x : Cert.KernelIdeal.S100000x64.Idx → α) (J : IVec Cert.KernelIdeal.S1200000x1 32) (y : Cert.KernelIdeal.S1200000x64.Idx) :
    Host.gather Cert.KernelIdeal.gather_S100000x64_S1200000x1_S1200000x64_1_0_n_n_0_1_164 x J y
      = x (ix2 ⟨min (J (ix2 ⟨(y 0).val, idx2_lt0 y⟩ (0 : Fin 1))).toInt.toNat (100000 - 1), by omega⟩ ⟨(y 1).val, idx2_lt1 y⟩) := by
  unfold Host.gather
  congr 1
  funext a
  refine Fin.ext ?_
  match a with
  | ⟨0, _⟩ =>
    show Cert.KernelIdeal.gather_S100000x64_S1200000x1_S1200000x64_1_0_n_n_0_1_164.start y J 0 + Cert.KernelIdeal.gather_S100000x64_S1200000x1_S1200000x64_1_0_n_n_0_1_164.batchCoord y 0 + Cert.KernelIdeal.gather_S100000x64_S1200000x1_S1200000x64_1_0_n_n_0_1_164.offCoord y 0 = _
    rw [GatherDims.batchCoord_eq_zero _ _ _ (show (0 : Fin Cert.KernelIdeal.S100000x64.rank) ∉ Cert.KernelIdeal.gather_S100000x64_S1200000x1_S1200000x64_1_0_n_n_0_1_164.operandBatchingDims by decide),
      GatherDims.offCoord_eq_zero _ _ _ (show (0 : Fin Cert.KernelIdeal.S100000x64.rank) ∉ Cert.KernelIdeal.gather_S100000x64_S1200000x1_S1200000x64_1_0_n_n_0_1_164.sKept by decide)]
    simp only [Nat.add_zero]
    unfold GatherDims.start
    rw [dif_pos (show (0 : Fin Cert.KernelIdeal.S100000x64.rank) ∈ Cert.KernelIdeal.gather_S100000x64_S1200000x1_S1200000x64_1_0_n_n_0_1_164.startIndexMap by decide)]
    have hsi : Cert.KernelIdeal.gather_S100000x64_S1200000x1_S1200000x64_1_0_n_n_0_1_164.siIdx y ⟨List.idxOf (0 : Fin Cert.KernelIdeal.S100000x64.rank) Cert.KernelIdeal.gather_S100000x64_S1200000x1_S1200000x64_1_0_n_n_0_1_164.startIndexMap,
        List.idxOf_lt_length_iff.2 (show (0 : Fin Cert.KernelIdeal.S100000x64.rank) ∈ Cert.KernelIdeal.gather_S100000x64_S1200000x1_S1200000x64_1_0_n_n_0_1_164.startIndexMap by decide)⟩
          = ix2 ⟨(y 0).val, idx2_lt0 y⟩ (0 : Fin 1) := by
      funext b; refine Fin.ext ?_
      match b with
      | ⟨0, _⟩ => rfl
      | ⟨1, _⟩ => rfl
    rw [hsi]
    rfl
  | ⟨1, _⟩ =>
    show Cert.KernelIdeal.gather_S100000x64_S1200000x1_S1200000x64_1_0_n_n_0_1_164.start y J 1 + Cert.KernelIdeal.gather_S100000x64_S1200000x1_S1200000x64_1_0_n_n_0_1_164.batchCoord y 1 + Cert.KernelIdeal.gather_S100000x64_S1200000x1_S1200000x64_1_0_n_n_0_1_164.offCoord y 1 = (y 1).val
    rw [GatherDims.batchCoord_eq_zero _ _ _ (show (1 : Fin Cert.KernelIdeal.S100000x64.rank) ∉ Cert.KernelIdeal.gather_S100000x64_S1200000x1_S1200000x64_1_0_n_n_0_1_164.operandBatchingDims by decide)]
    unfold GatherDims.start
    rw [dif_neg (show ¬ (1 : Fin Cert.KernelIdeal.S100000x64.rank) ∈ Cert.KernelIdeal.gather_S100000x64_S1200000x1_S1200000x64_1_0_n_n_0_1_164.startIndexMap by decide)]
    unfold GatherDims.offCoord
    rw [dif_pos (show (1 : Fin Cert.KernelIdeal.S100000x64.rank) ∈ Cert.KernelIdeal.gather_S100000x64_S1200000x1_S1200000x64_1_0_n_n_0_1_164.sKept by decide)]
    simp only [Nat.zero_add, Nat.add_zero]
    rfl

/-- Row e of the gathered array is the operand's row at the e-th start index, read signed and clamped into 0 … 99999;
    the column is kept. -/
theorem rows_reference {α : Type} (x : Cert.ReferenceIdeal.S100000x64.Idx → α) (J : IVec Cert.ReferenceIdeal.S1200000x1 32) (y : Cert.ReferenceIdeal.S1200000x64.Idx) :
    Host.gather Cert.ReferenceIdeal.gather_S100000x64_S1200000x1_S1200000x64_1_0_n_n_0_1_164 x J y
      = x (ix2 ⟨min (J (ix2 ⟨(y 0).val, idx2_lt0 y⟩ (0 : Fin 1))).toInt.toNat (100000 - 1), by omega⟩ ⟨(y 1).val, idx2_lt1 y⟩) := by
  unfold Host.gather
  congr 1
  funext a
  refine Fin.ext ?_
  match a with
  | ⟨0, _⟩ =>
    show Cert.ReferenceIdeal.gather_S100000x64_S1200000x1_S1200000x64_1_0_n_n_0_1_164.start y J 0 + Cert.ReferenceIdeal.gather_S100000x64_S1200000x1_S1200000x64_1_0_n_n_0_1_164.batchCoord y 0 + Cert.ReferenceIdeal.gather_S100000x64_S1200000x1_S1200000x64_1_0_n_n_0_1_164.offCoord y 0 = _
    rw [GatherDims.batchCoord_eq_zero _ _ _ (show (0 : Fin Cert.ReferenceIdeal.S100000x64.rank) ∉ Cert.ReferenceIdeal.gather_S100000x64_S1200000x1_S1200000x64_1_0_n_n_0_1_164.operandBatchingDims by decide),
      GatherDims.offCoord_eq_zero _ _ _ (show (0 : Fin Cert.ReferenceIdeal.S100000x64.rank) ∉ Cert.ReferenceIdeal.gather_S100000x64_S1200000x1_S1200000x64_1_0_n_n_0_1_164.sKept by decide)]
    simp only [Nat.add_zero]
    unfold GatherDims.start
    rw [dif_pos (show (0 : Fin Cert.ReferenceIdeal.S100000x64.rank) ∈ Cert.ReferenceIdeal.gather_S100000x64_S1200000x1_S1200000x64_1_0_n_n_0_1_164.startIndexMap by decide)]
    have hsi : Cert.ReferenceIdeal.gather_S100000x64_S1200000x1_S1200000x64_1_0_n_n_0_1_164.siIdx y ⟨List.idxOf (0 : Fin Cert.ReferenceIdeal.S100000x64.rank) Cert.ReferenceIdeal.gather_S100000x64_S1200000x1_S1200000x64_1_0_n_n_0_1_164.startIndexMap,
        List.idxOf_lt_length_iff.2 (show (0 : Fin Cert.ReferenceIdeal.S100000x64.rank) ∈ Cert.ReferenceIdeal.gather_S100000x64_S1200000x1_S1200000x64_1_0_n_n_0_1_164.startIndexMap by decide)⟩
          = ix2 ⟨(y 0).val, idx2_lt0 y⟩ (0 : Fin 1) := by
      funext b; refine Fin.ext ?_
      match b with
      | ⟨0, _⟩ => rfl
      | ⟨1, _⟩ => rfl
    rw [hsi]
    rfl
  | ⟨1, _⟩ =>
    show Cert.ReferenceIdeal.gather_S100000x64_S1200000x1_S1200000x64_1_0_n_n_0_1_164.start y J 1 + Cert.ReferenceIdeal.gather_S100000x64_S1200000x1_S1200000x64_1_0_n_n_0_1_164.batchCoord y 1 + Cert.ReferenceIdeal.gather_S100000x64_S1200000x1_S1200000x64_1_0_n_n_0_1_164.offCoord y 1 = (y 1).val
    rw [GatherDims.batchCoord_eq_zero _ _ _ (show (1 : Fin Cert.ReferenceIdeal.S100000x64.rank) ∉ Cert.ReferenceIdeal.gather_S100000x64_S1200000x1_S1200000x64_1_0_n_n_0_1_164.operandBatchingDims by decide)]
    unfold GatherDims.start
    rw [dif_neg (show ¬ (1 : Fin Cert.ReferenceIdeal.S100000x64.rank) ∈ Cert.ReferenceIdeal.gather_S100000x64_S1200000x1_S1200000x64_1_0_n_n_0_1_164.startIndexMap by decide)]
    unfold GatherDims.offCoord
    rw [dif_pos (show (1 : Fin Cert.ReferenceIdeal.S100000x64.rank) ∈ Cert.ReferenceIdeal.gather_S100000x64_S1200000x1_S1200000x64_1_0_n_n_0_1_164.sKept by decide)]
    simp only [Nat.zero_add, Nat.add_zero]
    rfl

/-- Entry e of the gathered vector is the operand at the e-th start index, read signed and clamped into 0 … 99999. -/
theorem entries_reference {α : Type} (x : Cert.ReferenceIdeal.S100000.Idx → α) (J : IVec Cert.ReferenceIdeal.S1200000x1 32) (y : Cert.ReferenceIdeal.S1200000.Idx) :
    Host.gather Cert.ReferenceIdeal.gather_S100000_S1200000x1_S1200000_n_0_n_n_0_1_1 x J y
      = x (ix1 ⟨min (J (ix2 ⟨(y 0).val, (y 0).isLt⟩ (0 : Fin 1))).toInt.toNat (100000 - 1), by omega⟩) := by
  unfold Host.gather
  congr 1
  funext a
  obtain rfl : a = 0 := Subsingleton.elim _ _
  refine Fin.ext ?_
  show Cert.ReferenceIdeal.gather_S100000_S1200000x1_S1200000_n_0_n_n_0_1_1.start y J 0 + Cert.ReferenceIdeal.gather_S100000_S1200000x1_S1200000_n_0_n_n_0_1_1.batchCoord y 0 + Cert.ReferenceIdeal.gather_S100000_S1200000x1_S1200000_n_0_n_n_0_1_1.offCoord y 0 = _
  rw [GatherDims.batchCoord_eq_zero _ _ _ (show (0 : Fin Cert.ReferenceIdeal.S100000.rank) ∉ Cert.ReferenceIdeal.gather_S100000_S1200000x1_S1200000_n_0_n_n_0_1_1.operandBatchingDims by decide),
    GatherDims.offCoord_eq_zero _ _ _ (show (0 : Fin Cert.ReferenceIdeal.S100000.rank) ∉ Cert.ReferenceIdeal.gather_S100000_S1200000x1_S1200000_n_0_n_n_0_1_1.sKept by decide)]
  simp only [Nat.add_zero]
  unfold GatherDims.start
  rw [dif_pos (show (0 : Fin Cert.ReferenceIdeal.S100000.rank) ∈ Cert.ReferenceIdeal.gather_S100000_S1200000x1_S1200000_n_0_n_n_0_1_1.startIndexMap by decide)]
  have hsi : Cert.ReferenceIdeal.gather_S100000_S1200000x1_S1200000_n_0_n_n_0_1_1.siIdx y ⟨List.idxOf (0 : Fin Cert.ReferenceIdeal.S100000.rank) Cert.ReferenceIdeal.gather_S100000_S1200000x1_S1200000_n_0_n_n_0_1_1.startIndexMap,
      List.idxOf_lt_length_iff.2 (show (0 : Fin Cert.ReferenceIdeal.S100000.rank) ∈ Cert.ReferenceIdeal.gather_S100000_S1200000x1_S1200000_n_0_n_n_0_1_1.startIndexMap by decide)⟩
        = ix2 ⟨(y 0).val, (y 0).isLt⟩ (0 : Fin 1) := by
    funext b; refine Fin.ext ?_
    match b with
    | ⟨0, _⟩ => rfl
    | ⟨1, _⟩ => rfl
  rw [hsi]
  rfl

end Cert.Gcn.Gather

end
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.Bridge.lean ====
/-
  The kernel's result and the reference's result are one function of the arguments, on the extended reals.

  Two equations carry it. First the per-edge rows: gathering rows of the scaled linear transform — entry (r, q) is
  (∑ k, x[r, k] · w[k, q]) · n[r] — at the clamped source index of an edge is gathering the rows of the plain product and
  the entries of the scale at the same clamped index and multiplying; no law of arithmetic is needed, both sides are the
  same product of the same two factors. Then the closing step: max(a · n + b, 0) entry by entry, the scale kept as a
  column and the bias as a row on one side, both spread over the whole array on the other. The scatter-add in between and
  the per-node scale are applied to equal arguments and stay folded.
-/
import proofs.«147732_j1065151889944_2_alg».proof.Proof.KernelValue
import proofs.«147732_j1065151889944_2_alg».proof.Proof.Gen.ReferenceIdeal.Read
import proofs.«147732_j1065151889944_2_alg».proof.Proof.GatherRead
import proofs.«147732_j1065151889944_2_alg».proof.Proof.LibKeepdims
import proofs.«147732_j1065151889944_2_alg».proof.Proof.LibBroadcastInDim
import Idealize.ShloMosaic.Lib.ValueLayout

noncomputable section

namespace Cert.Gcn.Bridge

open Idealize.ShloMosaic Idealize.ShloMosaic.ValueIdx
open Cert.ReferenceIdeal Cert.ReferenceIdeal.Gen Cert.ReferenceIdeal.Read
open Cert.LibBroadcastInDim

/-- The product's left index at contraction coordinate k: row of the result, column k. -/
theorem lidx_eq (r : Fin 100000) (q : Fin 64) (k : Fin 64) : lidx_main_v13 (ix2 r q) k = ix2 r k :=
  funext fun a => match a with | ⟨0, _⟩ => rfl | ⟨1, _⟩ => rfl
/-- The product's right index at contraction coordinate k: row k, column of the result. -/
theorem ridx_eq (r : Fin 100000) (q : Fin 64) (k : Fin 64) : ridx_main_v13 (ix2 r q) k = ix2 k q :=
  funext fun a => match a with | ⟨0, _⟩ => rfl | ⟨1, _⟩ => rfl

/-- THE PER-EDGE ROWS: rows of the scaled linear transform gathered at the edges' sources are the gathered rows of the
    product times the gathered entries of the scale. -/
theorem messages_eq (x : FVec Ideal S100000x64 .f32) (w : FVec Ideal S64x64 .f32) (n : FVec Ideal S100000 .f32)
    (J : IVec S1200000x1 32) :
    Host.gather Cert.KernelIdeal.gather_S100000x64_S1200000x1_S1200000x64_1_0_n_n_0_1_164
        (Cert.Gcn.scaledLinear x w (shapeCast S100000x1 n Cert.KernelIdeal.Gen.shapeCasts_S100000_S100000x1)) J
      = mulf (Host.gather gather_S100000x64_S1200000x1_S1200000x64_1_0_n_n_0_1_164 (val_main_v13 (F := Ideal) x w) J)
          (broadcastInDim S1200000x64 ![0, 1] bcast_S1200000x1_S1200000x64_0_1
            (broadcastInDim S1200000x1 ![0] bcast_S1200000_S1200000x1_0 (Host.gather gather_S100000_S1200000x1_S1200000_n_0_n_n_0_1_1 n J))) := by
  funext y
  obtain ⟨e, j, rfl⟩ : ∃ (e : Fin 1200000) (j : Fin 64), y = ix2 e j := ⟨y 0, y 1, eq_ix2 y⟩
  rw [Cert.Gcn.Gather.rows_kernel, mulf_apply, Cert.Gcn.Gather.rows_reference,
    col_to_mat_apply _ rfl rfl, vec_to_col_apply _ rfl, Cert.Gcn.Gather.entries_reference, val_main_v13_apply]
  unfold Cert.Gcn.scaledLinear Cert.Gcn.scaledLinearAt
  refine congrArg₂ (· * ·) (Finset.sum_congr rfl fun k _ => ?_) ?_
  · rw [lidx_eq, ridx_eq]
  · exact Cert.LibKeepdims.shapeCast_a_a1_apply n _ _ 0

/-- THE CLOSING STEP: with the scale as a column and the bias as a row, or both spread over the array. -/
theorem finish_eq (A : FVec Ideal S100000x64 .f32) (nd : FVec Ideal S100000 .f32) (b : FVec Ideal S64 .f32) :
    Cert.Gcn.finish A (shapeCast S100000x1 nd Cert.KernelIdeal.Gen.shapeCasts_S100000_S100000x1) (shapeCast S1x64 b Cert.KernelIdeal.Gen.shapeCasts_S64_S1x64)
      = maximumf (addf (mulf A (broadcastInDim S100000x64 ![0, 1] bcast_S100000x1_S100000x64_0_1
            (broadcastInDim S100000x1 ![0] bcast_S100000_S100000x1_0 nd)))
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32)) := by
  funext i
  obtain ⟨p, q, rfl⟩ : ∃ (p : Fin 100000) (q : Fin 64), i = ix2 p q := ⟨i 0, i 1, eq_ix2 i⟩
  rw [maximumf_apply, addf_apply, mulf_apply, col_to_mat_apply _ rfl rfl, vec_to_col_apply _ rfl,
    row_to_mat_apply _ rfl rfl, vec_to_row_apply _ rfl, scalar_apply]
  unfold Cert.Gcn.finish Cert.Gcn.finishAt
  refine congrArg₂ max (congrArg₂ (· + ·) (congrArg₂ (· * ·) rfl ?_) ?_) rfl
  · exact Cert.LibKeepdims.shapeCast_a_a1_apply nd _ _ 0
  · exact shapeCast_a_1a_apply b _ 0 _

/-- The kernel's result is the reference's, as functions of the five arguments. -/
theorem kernelOut_eq (x : FVec Ideal S100000x64 .f32) (w : FVec Ideal S64x64 .f32) (b : FVec Ideal S64 .f32)
    (src dst : IVec S1200000 32) :
    Cert.KernelIdeal.Hand.kernelOut x w b src dst = val_main_v40 (F := Ideal) x w b src dst := by
  unfold Cert.KernelIdeal.Hand.kernelOut
  rw [messages_eq, finish_eq]
  rfl

end Cert.Gcn.Bridge

end
-- ==== Proof.lean ====
/-
  One graph-convolution layer, out = max(Â · (x · w) + b, 0) with Â the edge list's adjacency scaled on both sides by
  the nodes' degrees to the power −1/2, computed two ways and proved equal on the extended reals.

  The kernel program scales the rows of x · w by the sources' scale inside its first pipelined region, gathers those
  rows along the edges, adds them up at the targets, and applies the targets' scale, the bias and the clamp in its
  second region. The reference gathers the rows of x · w and the sources' scale separately, multiplies, adds up, and
  finishes with whole-array operations. Row r of the scaled product is row r of the product times the scale at r, so
  the gathered rows agree edge by edge (the same clamped index on both sides); everything after is applied to equal
  arrays. No input needs to be finite for this: no sum is redistributed.

  The three frames are the programs' runs with the results forgotten; the idealization rewrote nothing.
-/
import proofs.«147732_j1065151889944_2_alg».proof.Defs
import proofs.«147732_j1065151889944_2_alg».proof.Proof.Gen.Kernel
import proofs.«147732_j1065151889944_2_alg».proof.Proof.Gen.Kernel.Skeleton
import proofs.«147732_j1065151889944_2_alg».proof.Proof.Gen.Kernel.Launch
import proofs.«147732_j1065151889944_2_alg».proof.Proof.Gen.Kernel.Points
import proofs.«147732_j1065151889944_2_alg».proof.Proof.Gen.Kernel.Frame
import proofs.«147732_j1065151889944_2_alg».proof.Proof.Gen.KernelIdeal
import proofs.«147732_j1065151889944_2_alg».proof.Proof.Gen.KernelIdeal.Skeleton
import proofs.«147732_j1065151889944_2_alg».proof.Proof.Gen.KernelIdeal.Launch
import proofs.«147732_j1065151889944_2_alg».proof.Proof.Gen.KernelIdeal.Points
import proofs.«147732_j1065151889944_2_alg».proof.Proof.Gen.KernelIdeal.Frame
import proofs.«147732_j1065151889944_2_alg».proof.Proof.Gen.ReferenceIdeal
import proofs.«147732_j1065151889944_2_alg».proof.Proof.Gen.Pre_finite_inputs
import proofs.«147732_j1065151889944_2_alg».proof.Proof.Gen.ReferenceIdeal.Run
import proofs.«147732_j1065151889944_2_alg».proof.Proof.Gen.ReferenceIdeal.Read
import proofs.«147732_j1065151889944_2_alg».proof.Proof.Host
import proofs.«147732_j1065151889944_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments both programs end with the same result array: the kernel's run ends at
    its result function of the arguments, the reference's at its own composed term, and the two are one function. -/
theorem algebraic : Cert.algebraic_KernelIdeal_ReferenceIdeal := by
  intro m ρ m' ρ' _ hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v40_eq _ _ _ _ _).trans (Cert.Gcn.Bridge.kernelOut_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
